-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S10x768 : Shape := ⟨2, ![10, 768]⟩
abbrev S10 : Shape := ⟨1, ![10]⟩
abbrev S3072x10 : Shape := ⟨2, ![3072, 10]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S10x768 : S_.BroadcastsInDim S10x768 (![] : Fin 0 → Fin S10x768.rank)
  reducesTo_S10x768_S_d0_1 : S10x768.ReducesTo [0, 1] S_
  bcast_S_S10 : S_.BroadcastsInDim S10 (![] : Fin 0 → Fin S10.rank)
  reducesTo_S10_S_d0 : S10.ReducesTo [0] S_
  bcast_S_S3072x10 : S_.BroadcastsInDim S3072x10 (![] : Fin 0 → Fin S3072x10.rank)
  reducesTo_S3072x10_S_d0_1 : S3072x10.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S3072 .f32) (main_arg5 : FVec F S768x3072 .f32) (main_arg6 : FVec F S768 .f32) (main_v13 : IVec S_ 1) (main_v16 : IVec S3072x10 1) : IVec S_ 1 :=
  let main_c_5 : IVec S_ 1 := constantI S_ 1 1#1
  let main_v17 : IVec S_ 1 := (fun x v => Host.reduce IntOp.andi x v reducesTo_S3072x10_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S768x3072 .f32 := Host.absf main_arg5
  let main_cst_8 : FVec F S_ .f32 := constant S_ .f32 0x7F800000#32
  let main_v25 : FVec F S768x3072 .f32 := broadcastInDim S768x3072 ![] bcast_S_S768x3072 main_cst_8
  let main_v26 : IVec S768x3072 1 := cmpf .olt main_v24 main_v25
  let main_c_9 : IVec S_ 1 := constantI S_ 1 1#1
  let main_v27 : IVec S_ 1 := (fun x v => Host.reduce IntOp.andi x v reducesTo_S768x3072_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x2048x768 .f32) (main_arg1 : FVec F S10x768 .f32) (main_arg2 : FVec F S10 .f32) (main_arg3 : FVec F S3072x10 .f32) (main_arg4 : FVec F S3072 .f32) (main_arg5 : FVec F S768x3072 .f32) (main_arg6 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S10x768 .f32 := Host.absf main_arg1
  let main_cst_0 : FVec F S_ .f32 := constant S_ .f32 0x7F800000#32
  let main_v5 : FVec F S10x768 .f32 := broadcastInDim S10x768 ![] bcast_S_S10x768 main_cst_0
  let main_v6 : IVec S10x768 1 := cmpf .olt main_v4 main_v5
  let main_c_1 : IVec S_ 1 := constantI S_ 1 1#1
  let main_v7 : IVec S_ 1 := (fun x v => Host.reduce IntOp.andi x v reducesTo_S10x768_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S3072x10 .f32 := Host.absf main_arg3
  let main_cst_4 : FVec F S_ .f32 := constant S_ .f32 0x7F800000#32
  let main_v15 : FVec F S3072x10 .f32 := broadcastInDim S3072x10 ![] bcast_S_S3072x10 main_cst_4
  let main_v16 : IVec S3072x10 1 := cmpf .olt main_v14 main_v15
  fn_part1 (F := F) main_arg4 main_arg5 main_arg6 main_v13 main_v16
-- ==== Kernel.lean ====
abbrev S8x2048x768 : Shape := ⟨3, ![8, 2048, 768]⟩
abbrev S10x768 : Shape := ⟨2, ![10, 768]⟩
abbrev S10 : Shape := ⟨1, ![10]⟩
abbrev S3072x10 : Shape := ⟨2, ![3072, 10]⟩
abbrev S3072 : Shape := ⟨1, ![3072]⟩
abbrev S768x3072 : Shape := ⟨2, ![768, 3072]⟩
abbrev S768 : Shape := ⟨1, ![768]⟩
abbrev S16384x768 : Shape := ⟨2, ![16384, 768]⟩
abbrev S768x10 : Shape := ⟨2, ![768, 10]⟩
abbrev S1x10 : Shape := ⟨2, ![1, 10]⟩
abbrev S10x3072 : Shape := ⟨2, ![10, 3072]⟩
abbrev S1x3072 : Shape := ⟨2, ![1, 3072]⟩
abbrev S3072x768 : Shape := ⟨2, ![3072, 768]⟩
abbrev S1x768 : Shape := ⟨2, ![1, 768]⟩
abbrev S512x768 : Shape := ⟨2, ![512, 768]⟩
abbrev S512x10 : Shape := ⟨2, ![512, 10]⟩
abbrev S512x3072 : Shape := ⟨2, ![512, 3072]⟩
abbrev S512x1 : Shape := ⟨2, ![512, 1]⟩

abbrev nBuf : Space → Nat
  | .hbm => 21
  | .vmem => 9
  | .smem => 0
  | _ => 0

abbrev bufTy : (tb : Table) → Fin (tcTables nBuf tb) → BufTy
  | .hbm, ⟨0, _⟩ => ⟨S8x2048x768, .f32⟩
  | .hbm, ⟨1, _⟩ => ⟨S10x768, .f32⟩
  | .hbm, ⟨2, _⟩ => ⟨S10, .f32⟩
  | .hbm, ⟨3, _⟩ => ⟨S3072x10, .f32⟩
  | .hbm, ⟨4, _⟩ => ⟨S3072, .f32⟩
  | .hbm, ⟨5, _⟩ => ⟨S768x3072, .f32⟩
  | .hbm, ⟨6, _⟩ => ⟨S768, .f32⟩
  | .hbm, ⟨7, _⟩ => ⟨S16384x768, .f32⟩
  | .hbm, ⟨8, _⟩ => ⟨S768x10, .f32⟩
  | .hbm, ⟨9, _⟩ => ⟨S768x10, .bf16⟩
  | .hbm, ⟨10, _⟩ => ⟨S10, .f32⟩
  | .hbm, ⟨11, _⟩ => ⟨S1x10, .f32⟩
  | .hbm, ⟨12, _⟩ => ⟨S3072x10, .f32⟩
  | .hbm, ⟨13, _⟩ => ⟨S3072x10, .f32⟩
  | .hbm, ⟨14, _⟩ => ⟨S10x3072, .f32⟩
  | .hbm, ⟨15, _⟩ => ⟨S1x3072, .f32⟩
  | .hbm, ⟨16, _⟩ => ⟨S3072x768, .f32⟩
  | .hbm, ⟨17, _⟩ => ⟨S3072x768, .bf16⟩
  | .hbm, ⟨18, _⟩ => ⟨S1x768, .f32⟩
  | .hbm, ⟨19, _⟩ => ⟨S16384x768, .f32⟩
  | .hbm, ⟨20, _⟩ => ⟨S8x2048x768, .f32⟩
  | .local _ .vmem, ⟨0, _⟩ => ⟨S512x768, .f32⟩
  | .local _ .vmem, ⟨1, _⟩ => ⟨S512x768, .f32⟩
  | .local _ .vmem, ⟨2, _⟩ => ⟨S768x10, .bf16⟩
  | .local _ .vmem, ⟨3, _⟩ => ⟨S10x3072, .f32⟩
  | .local _ .vmem, ⟨4, _⟩ => ⟨S1x3072, .f32⟩
  | .local _ .vmem, ⟨5, _⟩ => ⟨S3072x768, .bf16⟩
  | .local _ .vmem, ⟨6, _⟩ => ⟨S1x768, .f32⟩
  | .local _ .vmem, ⟨7, _⟩ => ⟨S512x768, .f32⟩
  | .local _ .vmem, ⟨8, _⟩ => ⟨S512x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x10 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x768_S16384x768 : S8x2048x768.ShapeCasts S16384x768
  transposes_S10x768_S768x10_1_0 : S10x768.Transposes [1, 0] S768x10
  bitsLt_bf16_f32 : FTy.bits .bf16 < FTy.bits .f32
  bcast_S10_S1x10_1 : S10.BroadcastsInDim S1x10 (![1] : Fin 1 → Fin S1x10.rank)
  bcast_S1x10_S3072x10_0_1 : S1x10.BroadcastsInDim S3072x10 (![0, 1] : Fin 2 → Fin S3072x10.rank)
  transposes_S3072x10_S10x3072_1_0 : S3072x10.Transposes [1, 0] S10x3072
  shapeCasts_S3072_S1x3072 : S3072.ShapeCasts S1x3072
  transposes_S768x3072_S3072x768_1_0 : S768x3072.Transposes [1, 0] S3072x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x10_S768x10_0_0 : ∀ a, (![0, 0] : Fin 2 → Nat) a + S768x10.size a ≤ S768x10.size a
  h_S768x10 : 0 < S768x10.numel
  shapeCasts_S768x10_S768x10 : S768x10.ShapeCasts S768x10
  inb_S10x3072_S10x3072_0_0 : ∀ a, (![0, 0] : Fin 2 → Nat) a + S10x3072.size a ≤ S10x3072.size a
  h_S10x3072 : 0 < S10x3072.numel
  shapeCasts_S10x3072_S10x3072 : S10x3072.ShapeCasts S10x3072
  slices_S512x10_o0_0_S512x1 : S512x10.Slices ![0, 0] S512x1
  slices_S10x3072_o0_0_S1x3072 : S10x3072.Slices ![0, 0] S1x3072
  broadcasts_S512x1_S512x3072 : S512x1.Broadcasts S512x3072
  broadcasts_S1x3072_S512x3072 : S1x3072.Broadcasts S512x3072
  slices_S512x10_o0_1_S512x1 : S512x10.Slices ![0, 1] S512x1
  slices_S10x3072_o1_0_S1x3072 : S10x3072.Slices ![1, 0] S1x3072
  slices_S512x10_o0_2_S512x1 : S512x10.Slices ![0, 2] S512x1
  slices_S10x3072_o2_0_S1x3072 : S10x3072.Slices ![2, 0] S1x3072
  slices_S512x10_o0_3_S512x1 : S512x10.Slices ![0, 3] S512x1
  slices_S10x3072_o3_0_S1x3072 : S10x3072.Slices ![3, 0] S1x3072
  slices_S512x10_o0_4_S512x1 : S512x10.Slices ![0, 4] S512x1
  slices_S10x3072_o4_0_S1x3072 : S10x3072.Slices ![4, 0] S1x3072
  slices_S512x10_o0_5_S512x1 : S512x10.Slices ![0, 5] S512x1
  slices_S10x3072_o5_0_S1x3072 : S10x3072.Slices ![5, 0] S1x3072
  slices_S512x10_o0_6_S512x1 : S512x10.Slices ![0, 6] S512x1
  slices_S10x3072_o6_0_S1x3072 : S10x3072.Slices ![6, 0] S1x3072
  slices_S512x10_o0_7_S512x1 : S512x10.Slices ![0, 7] S512x1
  slices_S10x3072_o7_0_S1x3072 : S10x3072.Slices ![7, 0] S1x3072
  slices_S512x10_o0_8_S512x1 : S512x10.Slices ![0, 8] S512x1
  slices_S10x3072_o8_0_S1x3072 : S10x3072.Slices ![8, 0] S1x3072
  slices_S512x10_o0_9_S512x1 : S512x10.Slices ![0, 9] S512x1
  slices_S10x3072_o9_0_S1x3072 : S10x3072.Slices ![9, 0] S1x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S16384x768_S8x2048x768 : S16384x768.ShapeCasts S8x2048x768
  dot_S512x768_S768x10_S512x10_1_0_0_1_n_n_wf : DotDims.WF S512x768 S768x10 S512x10 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .f32 = 32 ∨ (Rect.block (s := S16384x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x10.size a ≤ S768x10.size a
  hwx0_1 : ∀ i : grid0.Coords, EltTy.bits .bf16 = 32 ∨ (Rect.block (s := S768x10) S768x10.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x3072.size a ≤ S10x3072.size a
  hwx0_2 : ∀ i : grid0.Coords, EltTy.bits .f32 = 32 ∨ (Rect.block (s := S10x3072) S10x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x768.size a ≤ S3072x768.size a
  hwx0_4 : ∀ i : grid0.Coords, EltTy.bits .bf16 = 32 ∨ (Rect.block (s := S3072x768) S3072x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S16384x768.size a
  hwx0_6 : ∀ i : grid0.Coords, EltTy.bits .f32 = 32 ∨ (Rect.block (s := S16384x768) S512x768.size (cc0_transform_6 i) (hinb0_6 i)).WholeWords (EltTy.packing .f32)

variable [Facts₀]

def dot_S512x768_S768x10_S512x10_1_0_0_1_n_n : DotDims S512x768 S768x10 S512x10 where
  lhsContracting := [1]
  rhsContracting := [0]
  lhsNonContracting := [0]
  rhsNonContracting := [1]
  lhsBatch := []
  rhsBatch := []
  wf := dot_S512x768_S768x10_S512x10_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S3072x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S10x768 : Shape := ⟨2, ![10, 768]⟩
abbrev S10 : Shape := ⟨1, ![10]⟩
abbrev S3072x10 : Shape := ⟨2, ![3072, 10]⟩
abbrev S3072 : Shape := ⟨1, ![3072]⟩
abbrev S768x3072 : Shape := ⟨2, ![768, 3072]⟩
abbrev S768 : Shape := ⟨1, ![768]⟩
abbrev S16384x768 : Shape := ⟨2, ![16384, 768]⟩
abbrev S768x10 : Shape := ⟨2, ![768, 10]⟩
abbrev S16384x10 : Shape := ⟨2, ![16384, 10]⟩
abbrev S1x10 : Shape := ⟨2, ![1, 10]⟩
abbrev S10x3072 : Shape := ⟨2, ![10, 3072]⟩
abbrev S16384x3072 : Shape := ⟨2, ![16384, 3072]⟩
abbrev S1x3072 : Shape := ⟨2, ![1, 3072]⟩
abbrev S_ : Shape := ⟨0, ![]⟩
abbrev S3072x768 : Shape := ⟨2, ![3072, 768]⟩
abbrev S1x768 : Shape := ⟨2, ![1, 768]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S10x768, .f32⟩
  | .hbm, ⟨2, _⟩ => ⟨S10, .f32⟩
  | .hbm, ⟨3, _⟩ => ⟨S3072x10, .f32⟩
  | .hbm, ⟨4, _⟩ => ⟨S3072, .f32⟩
  | .hbm, ⟨5, _⟩ => ⟨S768x3072, .f32⟩
  | .hbm, ⟨6, _⟩ => ⟨S768, .f32⟩
  | .hbm, ⟨7, _⟩ => ⟨S16384x768, .f32⟩
  | .hbm, ⟨8, _⟩ => ⟨S768x10, .f32⟩
  | .hbm, ⟨9, _⟩ => ⟨S16384x10, .f32⟩
  | .hbm, ⟨10, _⟩ => ⟨S10, .f32⟩
  | .hbm, ⟨11, _⟩ => ⟨S1x10, .f32⟩
  | .hbm, ⟨12, _⟩ => ⟨S16384x10, .f32⟩
  | .hbm, ⟨13, _⟩ => ⟨S16384x10, .f32⟩
  | .hbm, ⟨14, _⟩ => ⟨S16384x10, .f32⟩
  | .hbm, ⟨15, _⟩ => ⟨S10x3072, .f32⟩
  | .hbm, ⟨16, _⟩ => ⟨S16384x3072, .f32⟩
  | .hbm, ⟨17, _⟩ => ⟨S1x3072, .f32⟩
  | .hbm, ⟨18, _⟩ => ⟨S16384x3072, .f32⟩
  | .hbm, ⟨19, _⟩ => ⟨S16384x3072, .f32⟩
  | .hbm, ⟨20, _⟩ => ⟨S_, .f32⟩
  | .hbm, ⟨21, _⟩ => ⟨S16384x3072, .f32⟩
  | .hbm, ⟨22, _⟩ => ⟨S16384x3072, .f32⟩
  | .hbm, ⟨23, _⟩ => ⟨S3072x768, .f32⟩
  | .hbm, ⟨24, _⟩ => ⟨S16384x768, .f32⟩
  | .hbm, ⟨25, _⟩ => ⟨S1x768, .f32⟩
  | .hbm, ⟨26, _⟩ => ⟨S16384x768, .f32⟩
  | .hbm, ⟨27, _⟩ => ⟨S16384x768, .f32⟩
  | .hbm, ⟨28, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  shapeCasts_S8x2048x768_S16384x768 : S8x2048x768.ShapeCasts S16384x768
  transposes_S10x768_S768x10_1_0 : S10x768.Transposes [1, 0] S768x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  transposes_S3072x10_S10x3072_1_0 : S3072x10.Transposes [1, 0] S10x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  bcast_S_S16384x3072 : S_.BroadcastsInDim S16384x3072 (![] : Fin 0 → Fin S16384x3072.rank)
  transposes_S768x3072_S3072x768_1_0 : S768x3072.Transposes [1, 0] S3072x768
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  shapeCasts_S16384x768_S8x2048x768 : S16384x768.ShapeCasts S8x2048x768
  dot_S16384x768_S768x10_S16384x10_1_0_0_1_n_n_wf : DotDims.WF S16384x768 S768x10 S16384x10 [1] [0] [0] [1] [] []
  dot_S16384x10_S10x3072_S16384x3072_1_0_0_1_n_n_wf : DotDims.WF S16384x10 S10x3072 S16384x3072 [1] [0] [0] [1] [] []
  dot_S16384x3072_S3072x768_S16384x768_1_0_0_1_n_n_wf : DotDims.WF S16384x3072 S3072x768 S16384x768 [1] [0] [0] [1] [] []

variable [Facts₀]

def dot_S16384x768_S768x10_S16384x10_1_0_0_1_n_n : DotDims S16384x768 S768x10 S16384x10 where
  lhsContracting := [1]
  rhsContracting := [0]
  lhsNonContracting := [0]
  rhsNonContracting := [1]
  lhsBatch := []
  rhsBatch := []
  wf := dot_S16384x768_S768x10_S16384x10_1_0_0_1_n_n_wf
def dot_S16384x10_S10x3072_S16384x3072_1_0_0_1_n_n : DotDims S16384x10 S10x3072 S16384x3072 where
  lhsContracting := [1]
  rhsContracting := [0]
  lhsNonContracting := [0]
  rhsNonContracting := [1]
  lhsBatch := []
  rhsBatch := []
  wf := dot_S16384x10_S10x3072_S16384x3072_1_0_0_1_n_n_wf
def dot_S16384x3072_S3072x768_S16384x768_1_0_0_1_n_n : DotDims S16384x3072 S3072x768 S16384x768 where
  lhsContracting := [1]
  rhsContracting := [0]
  lhsNonContracting := [0]
  rhsNonContracting := [1]
  lhsBatch := []
  rhsBatch := []
  wf := dot_S16384x3072_S3072x768_S16384x768_1_0_0_1_n_n_wf

class Facts : Prop extends Facts₀ where

variable [Facts]
-- ==== Proof.Layer.lean ====
/-
  The feed-forward block as mathematics, on the extended reals, one row at a time.

  A row `r` of 768 numbers is first mapped to ten angles, `angle w = ∑ e, r e * wm (e, w)`. Each angle is sent
  through the cosine; the ten cosines are combined into 3072 hidden units,
  `hiddenUnit k = max ((∑ w, cos (angle w) * w1 (w, k)) + b1 k) 0`, and the hidden units into 768 outputs,
  `out q = (∑ k, hiddenUnit k * w2 (k, q)) + b2 q`. The weights enter here in the layout in which the row meets them:
  the angle map as a 768 × 10 array, the first layer as a 10 × 3072 array (already scaled by the cosines of the
  ten fixed rotation angles), the biases as single rows. `layer` applies this to every row of a 16384 × 768 array.

  The last lemma writes a sum of ten terms as the left-to-right chain `0 + g 0 + g 1 + … + g 9`.
-/
import Idealize.ShloMosaic.PureOps.Ideal
import Idealize.ShloMosaic.Lib.ValueIdx

noncomputable section

open scoped BigOperators
open Idealize.ShloMosaic Idealize.ShloMosaic.ValueIdx

namespace Cert.FeedForward

/-- The rows: 16384 of them, 768 numbers each. -/
abbrev SRows : Shape := ⟨2, ![16384, 768]⟩
/-- The angle map, one column per wire. -/
abbrev SAngle : Shape := ⟨2, ![768, 10]⟩
/-- The first layer, one row per wire. -/
abbrev SFirst : Shape := ⟨2, ![10, 3072]⟩
/-- The first bias, as one row. -/
abbrev SBias1 : Shape := ⟨2, ![1, 3072]⟩
/-- The second layer. -/
abbrev SSecond : Shape := ⟨2, ![3072, 768]⟩
/-- The second bias, as one row. -/
abbrev SBias2 : Shape := ⟨2, ![1, 768]⟩

/-- The angle a row feeds to wire `w`. -/
def angle (r : Fin 768 → EReal) (wm : SAngle.Idx → EReal) (w : Fin 10) : EReal :=
  ∑ e : Fin 768, r e * wm (ix2 e w)

/-- Hidden unit `k` of a row: the ten cosines combined, the bias added, negative values cut off at zero. -/
def hiddenUnit (r : Fin 768 → EReal) (wm : SAngle.Idx → EReal) (w1 : SFirst.Idx → EReal) (b1 : SBias1.Idx → EReal)
    (k : Fin 3072) : EReal :=
  max ((∑ w : Fin 10, Ideal.cos (angle r wm w) * w1 (ix2 w k)) + b1 (ix2 (0 : Fin 1) k)) 0

/-- Output `q` of a row. -/
def rowOut (r : Fin 768 → EReal) (wm : SAngle.Idx → EReal) (w1 : SFirst.Idx → EReal) (b1 : SBias1.Idx → EReal)
    (w2 : SSecond.Idx → EReal) (b2 : SBias2.Idx → EReal) (q : Fin 768) : EReal :=
  (∑ k : Fin 3072, hiddenUnit r wm w1 b1 k * w2 (ix2 k q)) + b2 (ix2 (0 : Fin 1) q)

/-- The block applied to every row of an array. -/
def layer (a : SRows.Idx → EReal) (wm : SAngle.Idx → EReal) (w1 : SFirst.Idx → EReal) (b1 : SBias1.Idx → EReal)
    (w2 : SSecond.Idx → EReal) (b2 : SBias2.Idx → EReal) : SRows.Idx → EReal :=
  fun i => rowOut (fun e => a (ix2 (i 0) e)) wm w1 b1 w2 b2 (i 1)

theorem layer_apply (a : SRows.Idx → EReal) (wm : SAngle.Idx → EReal) (w1 : SFirst.Idx → EReal) (b1 : SBias1.Idx → EReal)
    (w2 : SSecond.Idx → EReal) (b2 : SBias2.Idx → EReal) (f : Fin 16384) (q : Fin 768) :
    layer a wm w1 b1 w2 b2 (ix2 f q) = rowOut (fun e => a (ix2 f e)) wm w1 b1 w2 b2 q := rfl

/-- A sum over ten indices is the chain that starts at zero and adds the terms in order. -/
theorem chain_ten (g : Fin 10 → EReal) :
    0 + g 0 + g 1 + g 2 + g 3 + g 4 + g 5 + g 6 + g 7 + g 8 + g 9 = ∑ w : Fin 10, g w := by
  rw [Fin.sum_univ_castSucc, Fin.sum_univ_castSucc, Fin.sum_univ_eight, zero_add]
  rfl

/-! ## The operands, from the program's arguments

The angle map arrives as a 10 × 768 array and is used transposed; the first layer arrives as a 3072 × 10 array and is
used transposed, each wire's row scaled by the cosine of that wire's rotation angle; the second layer arrives as a
768 × 3072 array and is used transposed; the two biases arrive as vectors and are used as rows. -/

/-- The angle map transposed: entry `(e, w)` is the argument's `(w, e)`. -/
def angleMap (Wm : (⟨2, ![10, 768]⟩ : Shape).Idx → EReal) : SAngle.Idx → EReal := fun j => Wm (ix2 (j 1) (j 0))

/-- The first layer transposed and scaled: entry `(w, k)` is the argument's `(k, w)` times `cos θ w`. -/
def firstScaled (W1 : (⟨2, ![3072, 10]⟩ : Shape).Idx → EReal) (θ : (⟨1, ![10]⟩ : Shape).Idx → EReal) : SFirst.Idx → EReal :=
  fun j => W1 (ix2 (j 1) (j 0)) * Ideal.cos (θ (ix1 (j 0)))

/-- The first bias as a row. -/
def biasRow1 (b : (⟨1, ![3072]⟩ : Shape).Idx → EReal) : SBias1.Idx → EReal := fun j => b (ix1 (j 1))

/-- The second layer transposed: entry `(k, q)` is the argument's `(q, k)`. -/
def secondMap (W2 : (⟨2, ![768, 3072]⟩ : Shape).Idx → EReal) : SSecond.Idx → EReal := fun j => W2 (ix2 (j 1) (j 0))

/-- The second bias as a row. -/
def biasRow2 (b : (⟨1, ![768]⟩ : Shape).Idx → EReal) : SBias2.Idx → EReal := fun j => b (ix1 (j 1))

/-- The block on the flattened rows, from the program's arguments. -/
def spec (xf : SRows.Idx → EReal) (Wm : (⟨2, ![10, 768]⟩ : Shape).Idx → EReal) (θ : (⟨1, ![10]⟩ : Shape).Idx → EReal)
    (W1 : (⟨2, ![3072, 10]⟩ : Shape).Idx → EReal) (b1 : (⟨1, ![3072]⟩ : Shape).Idx → EReal)
    (W2 : (⟨2, ![768, 3072]⟩ : Shape).Idx → EReal) (b2 : (⟨1, ![768]⟩ : Shape).Idx → EReal) : SRows.Idx → EReal :=
  layer xf (angleMap Wm) (firstScaled W1 θ) (biasRow1 b1) (secondMap W2) (biasRow2 b2)

end Cert.FeedForward

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.Payload.lean ====
/-
  What the body computes at one grid point, entry by entry, on the extended reals.

  The body holds a block of 512 rows. It multiplies the block by the 768 × 10 angle map and takes cosines, giving a
  512 × 10 array `c`. The first layer is not a matrix product in the body: for each wire `w` column `w` of `c` is
  repeated along the rows' 3072 hidden units, row `w` of the 10 × 3072 first-layer array is repeated down the 512
  rows, the two are multiplied entry by entry, and the ten products are added one after another onto a zero array.
  At entry `(p, k)` that chain is `0 + c (p, 0) * w1 (0, k) + … + c (p, 9) * w1 (9, k)`, which is the sum over the
  wires (`chain_ten`). The bias row is added, negative entries are cut off at zero, the result is multiplied by the
  3072 × 768 second layer and the second bias row is added. So entry `(p, q)` of the block's result is
  `rowOut` of row `p` of the block at `q`.
-/
import proofs.«136490_j65481071405447_2_alg».proof.Proof.Gen.KernelIdeal.Skeleton
import proofs.«136490_j65481071405447_2_alg».proof.Proof.Layer
import proofs.«136490_j65481071405447_2_alg».proof.Proof.LibColumn
import proofs.«136490_j65481071405447_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Body

open Cert.KernelIdeal Cert.KernelIdeal.Gen Cert.FeedForward

/-- One wire's term at entry `(p, k)`: column `o` of `c` repeated along the row, times row `o` of `d` repeated
    down the rows, is `c (p, o) * d (o, k)`. -/
theorem term_at (c : FVec Ideal S512x10 .f32) (d : FVec Ideal S10x3072 .f32) (o : Nat) (ho : o < 10)
    (hc : S512x10.Slices ![0, o] S512x1) (hd : S10x3072.Slices ![o, 0] S1x3072) (p : Fin 512) (k : Fin 3072) :
    mulf (broadcastTo S512x3072 (extractStridedSlice S512x1 ![0, o] c hc) broadcasts_S512x1_S512x3072)
        (broadcastTo S512x3072 (extractStridedSlice S1x3072 ![o, 0] d hd) broadcasts_S1x3072_S512x3072) (ix2 p k)
      = c (ix2 p ⟨o, ho⟩) * d (ix2 ⟨o, ho⟩ k) := by
  rw [mulf_apply, Cert.Lib.Column.broadcastTo_a1_ab_apply, broadcastTo_1b_ab_apply,
    slice2_axis1_apply o c hc p (0 : Fin 1) ⟨o, ho⟩ rfl, slice2_axis0_apply o d hd (0 : Fin 1) k ⟨o, ho⟩ rfl]

variable (x0 : Vec Ideal S512x768 .f32) (x1 : Vec Ideal S768x10 .bf16) (x2 : Vec Ideal S10x3072 .f32)
  (x3 : Vec Ideal S1x3072 .f32) (x4 : Vec Ideal S3072x768 .bf16) (x5 : Vec Ideal S1x768 .f32)

/-- The cosine of the angle row `p` of the block feeds to wire `w`. -/
theorem cosAngle_at (p : Fin 512) (w : Fin 10) :
    k0_pay2 (F := Ideal) x0 x1 (ix2 p w) = Ideal.cos (angle (fun e => x0 (ix2 p e)) x1 w) := by
  unfold k0_pay2
  refine congrArg Ideal.cos ?_
  refine (MatmulPlain.matmul_zero_apply (φ₁ := .bf16) (φ₂ := .bf16) dot_S512x768_S768x10_S512x10_1_0_0_1_n_n rfl rfl rfl rfl rfl rfl none _ _ p w).trans ?_
  rw [shapeCast_self, shapeCast_self]
  rfl

/-- The first six wires' terms, added in order onto zero. -/
theorem firstSix_at (p : Fin 512) (k : Fin 3072) :
    k0_pay4 (F := Ideal) x0 x1 x2 (ix2 p k)
      = 0 + k0_pay2 x0 x1 (ix2 p 0) * x2 (ix2 0 k) + k0_pay2 x0 x1 (ix2 p 1) * x2 (ix2 1 k)
          + k0_pay2 x0 x1 (ix2 p 2) * x2 (ix2 2 k) + k0_pay2 x0 x1 (ix2 p 3) * x2 (ix2 3 k)
          + k0_pay2 x0 x1 (ix2 p 4) * x2 (ix2 4 k) + k0_pay2 x0 x1 (ix2 p 5) * x2 (ix2 5 k) := by
  unfold k0_pay4 k0_pay3
  simp only [addf_apply, shapeCast_self, broadcast_apply]
  rw [term_at _ _ 0 (by decide), term_at _ _ 1 (by decide), term_at _ _ 2 (by decide), term_at _ _ 3 (by decide),
    term_at _ _ 4 (by decide), term_at _ _ 5 (by decide)]
  rw [show (Scalar.ofBits .f32 0x00000000#32 : Ideal .f32) = 0 from Ideal.ofBits_zero_f32]
  rfl

/-- The seventh wire's term. -/
theorem seventh_at (p : Fin 512) (k : Fin 3072) :
    k0_pay5 (F := Ideal) x0 x1 x2 (ix2 p k) = k0_pay2 x0 x1 (ix2 p 6) * x2 (ix2 6 k) := by
  unfold k0_pay5 k0_pay3
  simp only [shapeCast_self]
  rw [term_at _ _ 6 (by decide)]
  rfl

/-- The first-layer array as the body holds it is the array loaded. -/
theorem firstLayer_eq : k0_pay3 (F := Ideal) x2 = x2 := by
  unfold k0_pay3
  exact shapeCast_self _ _

/-- Entry `(p, q)` of the block's result is the layer's output `q` of row `p` of the block. -/
theorem block_at (p : Fin 512) (q : Fin 768) :
    k0_pay1 (F := Ideal) (k0_pay2 x0 x1) (k0_pay3 x2) (k0_pay4 x0 x1 x2) (k0_pay5 x0 x1 x2) x3 x4 x5 (ix2 p q)
      = rowOut (fun e => x0 (ix2 p e)) x1 x2 x3 x4 x5 q := by
  unfold k0_pay1 rowOut
  simp only [addf_apply, shapeCast_self]
  rw [broadcastTo_1b_ab_apply]
  refine congrArg (· + x5 (ix2 (0 : Fin 1) q)) ?_
  refine (MatmulPlain.matmul_zero_apply (φ₁ := .bf16) (φ₂ := .bf16) dot_S512x3072_S3072x768_S512x768_1_0_0_1_n_n rfl rfl rfl rfl rfl rfl none _ _ p q).trans ?_
  refine Finset.sum_congr rfl fun k _ => ?_
  refine congrArg (· * x4 (ix2 k q)) ?_
  unfold hiddenUnit
  rw [truncf_apply, maximumf_apply, addf_apply, broadcastTo_1b_ab_apply, broadcast_apply]
  refine congrArg₂ max (congrArg (· + x3 (ix2 (0 : Fin 1) k)) ?_) Ideal.ofBits_zero_f32
  simp only [addf_apply]
  rw [firstSix_at, seventh_at, term_at _ _ 7 (by decide), term_at _ _ 8 (by decide), term_at _ _ 9 (by decide),
    firstLayer_eq]
  simp only [cosAngle_at]
  exact chain_ten (fun w => Ideal.cos (angle (fun e => x0 (ix2 p e)) x1 w) * x2 (ix2 w k))

end Cert.KernelIdeal.Body

end
-- ==== Proof.Operands.lean ====
/-
  The arrays the grid is launched on, from the program's arguments.

  Before the grid starts, the host lays the arguments out for it: the input is flattened to 16384 rows; the angle map
  and the second layer are transposed (and narrowed, which changes no value on the extended reals); the two biases
  become rows; and the first layer is multiplied, column by column, by the cosines of the ten rotation angles
  (the cosine vector is repeated down the 3072 rows) and then transposed. Entry by entry these are the operand
  arrays of `spec`.
-/
import proofs.«136490_j65481071405447_2_alg».proof.Proof.Gen.KernelIdeal.Frame
import proofs.«136490_j65481071405447_2_alg».proof.Proof.Layer
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Launched

open Cert.KernelIdeal Cert.KernelIdeal.Gen Cert.FeedForward

/-! ## The host's layout operations, entry by entry -/

/-- A 10 × 768 array transposed and narrowed is the angle map in the layout the rows meet. -/
theorem angleMap_read (x : S10x768.Idx → EReal) :
    truncf (F := Ideal) (φ := .f32) .bf16 (transpose S768x10 [1, 0] x transposes_S10x768_S768x10_1_0) bitsLt_bf16_f32
      = angleMap x := by
  funext j
  obtain ⟨a, w, rfl⟩ : ∃ (a : Fin 768) (w : Fin 10), j = ix2 a w := ⟨j 0, j 1, eq_ix2 j⟩
  exact transpose_ix2_apply x transposes_S10x768_S768x10_1_0 a w

/-- A 768 × 3072 array transposed and narrowed is the second layer in the layout the hidden units meet. -/
theorem secondMap_read (x : S768x3072.Idx → EReal) :
    truncf (F := Ideal) (φ := .f32) .bf16 (transpose S3072x768 [1, 0] x transposes_S768x3072_S3072x768_1_0) bitsLt_bf16_f32
      = secondMap x := by
  funext j
  obtain ⟨k, q, rfl⟩ : ∃ (k : Fin 3072) (q : Fin 768), j = ix2 k q := ⟨j 0, j 1, eq_ix2 j⟩
  exact transpose_ix2_apply x transposes_S768x3072_S3072x768_1_0 k q

/-- The 3072 × 10 first layer times the cosine vector repeated down its rows, transposed: entry `(w, k)` is the
    layer's `(k, w)` times the cosine of wire `w`'s rotation angle. -/
theorem firstScaled_read (W : S3072x10.Idx → EReal) (θ : S10.Idx → EReal) :
    transpose S10x3072 [1, 0] (mulf (F := Ideal) (φ := .f32) W
        (broadcastInDim S3072x10 ![0, 1] bcast_S1x10_S3072x10_0_1 (broadcastInDim S1x10 ![1] bcast_S10_S1x10_1
          (Host.cos (F := Ideal) (φ := .f32) (s := S10) θ)))) transposes_S3072x10_S10x3072_1_0
      = firstScaled W θ := by
  funext j
  obtain ⟨w, k, rfl⟩ : ∃ (w : Fin 10) (k : Fin 3072), j = ix2 w k := ⟨j 0, j 1, eq_ix2 j⟩
  refine (transpose_ix2_apply _ transposes_S3072x10_S10x3072_1_0 w k).trans ?_
  rw [mulf_apply]
  refine congrArg (W (ix2 k w) * ·) ?_
  refine (broadcastInDim_apply _ bcast_S1x10_S3072x10_0_1 _ (ix2 k w) (ix2 (0 : Fin 1) w) (fun a => match a with
    | ⟨0, _⟩ => by show 0 = if (1 : Nat) = 1 then 0 else k.val; rw [if_pos rfl]
    | ⟨1, _⟩ => by show w.val = if (10 : Nat) = 1 then 0 else w.val; rw [if_neg (by decide)])).trans ?_
  refine (broadcastInDim_apply _ bcast_S10_S1x10_1 _ (ix2 (0 : Fin 1) w) (ix1 w) (fun a => match a with
    | ⟨0, _⟩ => by show w.val = if (10 : Nat) = 1 then 0 else w.val; rw [if_neg (by decide)])).trans ?_
  rfl

/-- A vector of 3072 numbers recast as one row. -/
theorem biasRow1_read (b : S3072.Idx → EReal) : shapeCast S1x3072 b shapeCasts_S3072_S1x3072 = biasRow1 b := by
  funext j
  obtain ⟨u, k, rfl⟩ : ∃ (u : Fin 1) (k : Fin 3072), j = ix2 u k := ⟨j 0, j 1, eq_ix2 j⟩
  exact shapeCast_a_1a_apply b shapeCasts_S3072_S1x3072 u k

/-- A vector of 768 numbers recast as one row. -/
theorem biasRow2_read (b : S768.Idx → EReal) : shapeCast S1x768 b shapeCasts_S768_S1x768 = biasRow2 b := by
  funext j
  obtain ⟨u, q, rfl⟩ : ∃ (u : Fin 1) (q : Fin 768), j = ix2 u q := ⟨j 0, j 1, eq_ix2 j⟩
  exact shapeCast_a_1a_apply b shapeCasts_S768_S1x768 u q

/-! ## The launched arrays -/

variable (m : (ℓ : Loc nD τ sig) → Buf (Elt Ideal) ℓ)

/-- The rows: the input flattened. -/
theorem rows_eq (c : Dev nD) :
    (V m c main_v0 : S16384x768.Idx → EReal)
      = shapeCast S16384x768 (m ((c : Thread nD τ).loc main_arg0)) shapeCasts_S8x2048x768_S16384x768 := by
  show StableHlo.after hostOps0 (fun b => m (c, b)) (Proc.devRef .tc main_v0) = _
  after_results <;> rfl

/-- The angle map, transposed. -/
theorem angleMap_eq (c : Dev nD) :
    (V m c main_v2 : S768x10.Idx → EReal) = angleMap (m ((c : Thread nD τ).loc main_arg1)) := by
  refine Eq.trans ?_ (angleMap_read (m ((c : Thread nD τ).loc main_arg1)))
  show StableHlo.after hostOps0 (fun b => m (c, b)) (Proc.devRef .tc main_v2) = _
  after_results <;> rfl

/-- The first layer, each wire's column scaled by the cosine of its rotation angle, transposed. -/
theorem firstScaled_eq (c : Dev nD) :
    (V m c main_v7 : S10x3072.Idx → EReal)
      = firstScaled (m ((c : Thread nD τ).loc main_arg3)) (m ((c : Thread nD τ).loc main_arg2)) := by
  refine Eq.trans ?_ (firstScaled_read (m ((c : Thread nD τ).loc main_arg3)) (m ((c : Thread nD τ).loc main_arg2)))
  show StableHlo.after hostOps0 (fun b => m (c, b)) (Proc.devRef .tc main_v7) = _
  after_results <;> rfl

/-- The first bias, as a row. -/
theorem biasRow1_eq (c : Dev nD) :
    (V m c main_v8 : S1x3072.Idx → EReal) = biasRow1 (m ((c : Thread nD τ).loc main_arg4)) := by
  refine Eq.trans ?_ (biasRow1_read (m ((c : Thread nD τ).loc main_arg4)))
  show StableHlo.after hostOps0 (fun b => m (c, b)) (Proc.devRef .tc main_v8) = _
  after_results <;> rfl

/-- The second layer, transposed. -/
theorem secondMap_eq (c : Dev nD) :
    (V m c main_v10 : S3072x768.Idx → EReal) = secondMap (m ((c : Thread nD τ).loc main_arg5)) := by
  refine Eq.trans ?_ (secondMap_read (m ((c : Thread nD τ).loc main_arg5)))
  show StableHlo.after hostOps0 (fun b => m (c, b)) (Proc.devRef .tc main_v10) = _
  after_results <;> rfl

/-- The second bias, as a row. -/
theorem biasRow2_eq (c : Dev nD) :
    (V m c main_v11 : S1x768.Idx → EReal) = biasRow2 (m ((c : Thread nD τ).loc main_arg6)) := by
  refine Eq.trans ?_ (biasRow2_read (m ((c : Thread nD τ).loc main_arg6)))
  show StableHlo.after hostOps0 (fun b => m (c, b)) (Proc.devRef .tc main_v11) = _
  after_results <;> rfl

end Cert.KernelIdeal.Launched

end
-- ==== Proof.KernelRun.lean ====
/-
  The kernel's run, read: what the result array holds when the program ends.

  The grid has 32 points. Point `t` is given rows `512 t … 512 t + 511` of the flattened input and the whole of each
  of the five weight arrays, and writes back rows `512 t … 512 t + 511` of the output. By the entry-by-entry reading
  of the body, row `p` of what point `t` writes is the block's function of row `512 t + p` of the input, so point
  `t` writes block `t` of `layer` applied to the launched arrays. The 32 blocks tile the 16384 rows (row `r` is in
  the block of point `r / 512`), hence the whole output array is `layer` of the launched arrays; these are the
  operands of `spec`, and the last host line reshapes the array to the result's three axes.
-/
import proofs.«136490_j65481071405447_2_alg».proof.Proof.Gen.KernelIdeal.Frame
import proofs.«136490_j65481071405447_2_alg».proof.Proof.Payload
import proofs.«136490_j65481071405447_2_alg».proof.Proof.Operands
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Grid

open Cert.KernelIdeal Cert.KernelIdeal.Gen Cert.FeedForward

variable (m : (ℓ : Loc nD τ sig) → Buf (Elt Ideal) ℓ) (ρ : Dev nD → PrngReg)

theorem zeroOffsets : (![0, 0] : Fin 2 → Nat) = fun _ => 0 := funext fun a => by fin_cases a <;> rfl

/-- The block applied to the arrays the grid is launched on. -/
def launchedOut (c : Dev nD) : S16384x768.Idx → EReal :=
  layer (V m c main_v0 : S16384x768.Idx → EReal) (V m c main_v2 : S768x10.Idx → EReal)
    (V m c main_v7 : S10x3072.Idx → EReal) (V m c main_v8 : S1x3072.Idx → EReal)
    (V m c main_v10 : S3072x768.Idx → EReal) (V m c main_v11 : S1x768.Idx → EReal)

/-- The printed index maps over the grid: the input's and the output's block index is the point along the rows and
    zero along the columns; every weight array's block index is zero. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the input block at point `t` is row `512 t + p` of the rows. -/
theorem rowsBlock (c : Dev nD) (t : Fin cfg0.N) (p : Fin 512) (e : Fin 768) (r : Fin 16384) (hr : r.val = t.val * 512 + p.val) :
    (iblk m c 0 t : S512x768.Idx → EReal) (ix2 p e) = (V m c main_v0 : S16384x768.Idx → EReal) (ix2 r e) := by
  obtain ⟨h00, h01, -⟩ := blockIndex t
  unfold iblk
  rw [View.read_apply]
  show V m c main_v0 _ = V m c main_v0 _
  congr 1
  funext a
  apply Fin.ext
  match a with
  | ⟨0, _⟩ => show win0_0.index t (0 : Fin 2) * 512 + 1 * p.val = r.val; rw [h00, hr]; omega
  | ⟨1, _⟩ => show win0_0.index t (1 : Fin 2) * 768 + 1 * e.val = e.val; rw [h01]; omega

/-- Each weight window's block, at every point, is the whole array. -/
theorem angleBlock (c : Dev nD) (t : Fin cfg0.N) : (iblk m c 1 t : S768x10.Idx → EReal) = V m c main_v2 := by
  obtain ⟨-, -, h0, h1, -⟩ := blockIndex t
  funext y
  unfold iblk
  rw [View.read_apply]
  show V m c main_v2 _ = V m c main_v2 y
  congr 1
  funext a
  apply Fin.ext
  match a with
  | ⟨0, _⟩ => show win0_1.index t (0 : Fin 2) * 768 + 1 * (y 0).val = (y 0).val; rw [h0]; omega
  | ⟨1, _⟩ => show win0_1.index t (1 : Fin 2) * 10 + 1 * (y 1).val = (y 1).val; rw [h1]; omega

theorem firstBlock (c : Dev nD) (t : Fin cfg0.N) : (iblk m c 2 t : S10x3072.Idx → EReal) = V m c main_v7 := by
  obtain ⟨-, -, -, -, h0, h1, -⟩ := blockIndex t
  funext y
  unfold iblk
  rw [View.read_apply]
  show V m c main_v7 _ = V m c main_v7 y
  congr 1
  funext a
  apply Fin.ext
  match a with
  | ⟨0, _⟩ => show win0_2.index t (0 : Fin 2) * 10 + 1 * (y 0).val = (y 0).val; rw [h0]; omega
  | ⟨1, _⟩ => show win0_2.index t (1 : Fin 2) * 3072 + 1 * (y 1).val = (y 1).val; rw [h1]; omega

theorem bias1Block (c : Dev nD) (t : Fin cfg0.N) : (iblk m c 3 t : S1x3072.Idx → EReal) = V m c main_v8 := by
  obtain ⟨-, -, -, -, -, -, h0, h1, -⟩ := blockIndex t
  funext y
  unfold iblk
  rw [View.read_apply]
  show V m c main_v8 _ = V m c main_v8 y
  congr 1
  funext a
  apply Fin.ext
  match a with
  | ⟨0, _⟩ => show win0_3.index t (0 : Fin 2) * 1 + 1 * (y 0).val = (y 0).val; rw [h0]; omega
  | ⟨1, _⟩ => show win0_3.index t (1 : Fin 2) * 3072 + 1 * (y 1).val = (y 1).val; rw [h1]; omega

theorem secondBlock (c : Dev nD) (t : Fin cfg0.N) : (iblk m c 4 t : S3072x768.Idx → EReal) = V m c main_v10 := by
  obtain ⟨-, -, -, -, -, -, -, -, h0, h1, -⟩ := blockIndex t
  funext y
  unfold iblk
  rw [View.read_apply]
  show V m c main_v10 _ = V m c main_v10 y
  congr 1
  funext a
  apply Fin.ext
  match a with
  | ⟨0, _⟩ => show win0_4.index t (0 : Fin 2) * 3072 + 1 * (y 0).val = (y 0).val; rw [h0]; omega
  | ⟨1, _⟩ => show win0_4.index t (1 : Fin 2) * 768 + 1 * (y 1).val = (y 1).val; rw [h1]; omega

theorem bias2Block (c : Dev nD) (t : Fin cfg0.N) : (iblk m c 5 t : S1x768.Idx → EReal) = V m c main_v11 := by
  obtain ⟨-, -, -, -, -, -, -, -, -, -, h0, h1, -⟩ := blockIndex t
  funext y
  unfold iblk
  rw [View.read_apply]
  show V m c main_v11 _ = V m c main_v11 y
  congr 1
  funext a
  apply Fin.ext
  match a with
  | ⟨0, _⟩ => show win0_5.index t (0 : Fin 2) * 1 + 1 * (y 0).val = (y 0).val; rw [h0]; omega
  | ⟨1, _⟩ => show win0_5.index t (1 : Fin 2) * 768 + 1 * (y 1).val = (y 1).val; rw [h1]; omega

/-- What point `t` writes back is block `t` of the block applied to the launched arrays. -/
theorem flushed_eq (c : Dev nD) (t : Fin cfg0.N) :
    (dats m 0 c).flushed 6 t = ((cfg0.win 6).blk t).view.read (Elt Ideal) (launchedOut m c) := by
  show (cfg0.win 6).cut (grid0.coords t) ((dats m 0 c).after 6 t) = _
  rw [after0_6]
  unfold out0_6
  rw [View.canon_unit_zero zeroOffsets]
  simp only [View.ld_unit_zero (S := S512x768) zeroOffsets, View.ld_unit_zero (S := S768x10) zeroOffsets,
    View.ld_unit_zero (S := S10x3072) zeroOffsets, View.ld_unit_zero (S := S1x3072) zeroOffsets,
    View.ld_unit_zero (S := S3072x768) zeroOffsets, View.ld_unit_zero (S := S1x768) zeroOffsets]
  have ht : t.val < 32 := Nat.lt_of_lt_of_eq t.isLt N_0
  obtain ⟨-, -, -, -, -, -, -, -, -, -, -, -, h60, h61⟩ := blockIndex t
  funext j
  obtain ⟨p, q, rfl⟩ : ∃ (p : Fin 512) (q : Fin 768), j = ix2 p q := ⟨j 0, j 1, eq_ix2 j⟩
  refine (Body.block_at (iblk m c 0 t) (iblk m c 1 t) (iblk m c 2 t) (iblk m c 3 t) (iblk m c 4 t) (iblk m c 5 t) p q).trans ?_
  rw [View.read_apply]
  have hemb : ((cfg0.win 6).blk t).view.emb (ix2 p q)
      = ix2 (⟨t.val * 512 + p.val, by have := p.isLt; omega⟩ : Fin 16384) q := by
    funext a
    apply Fin.ext
    match a with
    | ⟨0, _⟩ => show win0_6.index t (0 : Fin 2) * 512 + 1 * p.val = t.val * 512 + p.val; rw [h60]; omega
    | ⟨1, _⟩ => show win0_6.index t (1 : Fin 2) * 768 + 1 * q.val = q.val; rw [h61]; omega
  rw [hemb]
  unfold launchedOut
  rw [layer_apply, angleBlock m c t, firstBlock m c t, bias1Block m c t, secondBlock m c t, bias2Block m c t]
  refine congrArg (fun r => rowOut r _ _ _ _ _ q) (funext fun e => ?_)
  exact rowsBlock m c t p e _ rfl

/-- An index of the output array is in point `t`'s block iff each coordinate is in the block's range. -/
theorem mem_blk (t : Fin cfg0.N) (i : S16384x768.Idx) :
    i ∈ ((cfg0.win 6).blk t).view.set ↔ ∀ a : Fin 2, win0_6.index t a * S512x768.size a ≤ (i a).val
      ∧ (i a).val < win0_6.index t a * S512x768.size a + S512x768.size a := by
  show i ∈ ((View.whole main_v12).slice (win0_6.rect t)).set ↔ _
  rw [View.set_slice_whole, Rect.mem_set_unit]
  exact Iff.rfl

/-- The output array after the grid: the block applied to the launched arrays, every row. -/
theorem final (c : Dev nD) : (dats m 0 c).arrAt 6 cfg0.N = launchedOut m c :=
  (dats m 0 c).arrAt_eq_of_cover 6 (launchedOut m c) (fun t _ => flushed_eq m c t) (fun i => by
    have hi0 : (i 0).val < 16384 := (i 0).isLt
    have hi1 : (i 1).val < 768 := (i 1).isLt
    have hN : cfg0.N = 32 := N_0
    obtain ⟨-, -, -, -, -, -, -, -, -, -, -, -, h60, h61⟩ :=
      blockIndex (⟨(i 0).val / 512, by rw [hN]; omega⟩ : Fin cfg0.N)
    have h60' : win0_6.index (⟨(i 0).val / 512, by rw [hN]; omega⟩ : Fin cfg0.N) (0 : Fin 2) = (i 0).val / 512 := h60
    refine ⟨⟨(i 0).val / 512, by rw [hN]; omega⟩, flush0_6 _, ?_⟩
    rw [mem_blk]
    intro a
    match a with
    | ⟨0, _⟩ =>
      show win0_6.index _ (0 : Fin 2) * 512 ≤ (i 0).val ∧ (i 0).val < win0_6.index _ (0 : Fin 2) * 512 + 512
      rw [h60']; omega
    | ⟨1, _⟩ =>
      show win0_6.index _ (1 : Fin 2) * 768 ≤ (i 1).val ∧ (i 1).val < win0_6.index _ (1 : Fin 2) * 768 + 768
      rw [h61]; omega)

/-- The launched arrays are the operands of `spec`. -/
theorem launchedOut_eq (c : Dev nD) :
    launchedOut m c = spec (shapeCast S16384x768 (m ((c : Thread nD τ).loc main_arg0)) shapeCasts_S8x2048x768_S16384x768)
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  unfold launchedOut spec
  rw [Launched.rows_eq, Launched.angleMap_eq, Launched.firstScaled_eq, Launched.biasRow1_eq, Launched.secondMap_eq,
    Launched.biasRow2_eq]

/-- The result after the last host line: the output array reshaped. -/
theorem result_eq (c : Dev nD) :
    Pipeline.afterTail₀ cfgs (dats m) 0 (V0 m) [hostOps1] c main_v13
      = shapeCast S8x2048x768 (launchedOut m c) shapeCasts_S16384x768_S8x2048x768 := by
  have hw : Pipeline.withArrays (cfgs 0).spec c (V0 m c) (fun w => (dats m 0 c).arrAt w (cfgs 0).N)
      (Proc.devRef .tc main_v12) = launchedOut m c :=
    (Pipeline.withArrays_arr spec0 launch0.win.arr_inj c (V0 m c) _ 6).trans (final m c)
  unfold Pipeline.afterTail₀
  show StableHlo.after hostOps1 _ (Proc.devRef .tc main_v13) = _
  after_results
  rw [hw]
  rfl

/-- The program's result as a function of its seven arguments: the input flattened to rows, the block applied, the
    rows folded back into the input's three axes. -/
def resultOf (x : S8x2048x768.Idx → EReal) (Wm : S10x768.Idx → EReal) (θ : S10.Idx → EReal) (W1 : S3072x10.Idx → EReal)
    (b1 : S3072.Idx → EReal) (W2 : S768x3072.Idx → EReal) (b2 : S768.Idx → EReal) : S8x2048x768.Idx → EReal :=
  shapeCast S8x2048x768 (spec (shapeCast S16384x768 x shapeCasts_S8x2048x768_S16384x768) Wm θ W1 b1 W2 b2)
    shapeCasts_S16384x768_S8x2048x768

/-- Every execution of the program ends with the result array at `resultOf` of the arguments, the arguments unchanged. -/
theorem run : θ_run defs (onTc (τ := τ) (main (F := Ideal))) ⟨m, fun _ => 0, ρ⟩ fun r => ∀ c : Dev nD,
      r.2.mem ((c : Thread nD τ).loc main_v13)
        = resultOf (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(((h c).2 main_v13 (Pipeline.mem_restRefs_of main_v13 (by decide) (by decide))).trans (result_eq m c)).trans
        (congrArg (fun v => shapeCast S8x2048x768 v shapeCasts_S16384x768_S8x2048x768) (launchedOut_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Grid

end
-- ==== Proof.RefValue.lean ====
/-
  The reference computes the feed-forward block.

  Read one entry at a time, the reference's array before its last reshape holds, at `(f, q)`,
  `(∑ k, max ((∑ w, (cos θ w * cos (angle w)) * W1 (k, w)) + b1 k) 0 * W2 (q, k)) + b2 q` with
  `angle w = ∑ e, x (f, e) * Wm (w, e)` over row `f` of the flattened input. This is `spec`: the only difference is
  where the factor `cos θ w` stands in each wire's term, `(cos θ w * c) * W` here against `c * (W * cos θ w)` there,
  and multiplication on the extended reals is commutative and associative.
-/
import proofs.«136490_j65481071405447_2_alg».proof.Proof.Gen.ReferenceIdeal.Read
import proofs.«136490_j65481071405447_2_alg».proof.Proof.Layer

noncomputable section

open scoped BigOperators
open Idealize.ShloMosaic Idealize.ShloMosaic.ValueIdx

namespace Cert.ReferenceIdeal.Entry

open Cert.ReferenceIdeal Cert.ReferenceIdeal.Gen Cert.ReferenceIdeal.Read Cert.FeedForward

/-! The index maps of the reference's operations at coordinates. -/

theorem lidx2 (f : Fin 16384) (w : Fin 10) (e : Fin 768) : lidx_main_v2 (ix2 f w) e = ix2 f e :=
  funext fun a => by match a with | ⟨0, _⟩ => rfl | ⟨1, _⟩ => rfl
theorem ridx2 (f : Fin 16384) (w : Fin 10) (e : Fin 768) : ridx_main_v2 (ix2 f w) e = ix2 e w :=
  funext fun a => by match a with | ⟨0, _⟩ => rfl | ⟨1, _⟩ => rfl
theorem idx1 (e : Fin 768) (w : Fin 10) : idx_main_v1 (ix2 e w) = ix2 w e :=
  funext fun a => by match a with | ⟨0, _⟩ => rfl | ⟨1, _⟩ => rfl
theorem idx46 (f : Fin 16384) (w : Fin 10) : idx_main_v4 (idx_main_v6 (ix2 f w)) = ix1 w :=
  funext fun a => by match a with | ⟨0, _⟩ => rfl
theorem lidx9 (f : Fin 16384) (k : Fin 3072) (w : Fin 10) : lidx_main_v9 (ix2 f k) w = ix2 f w :=
  funext fun a => by match a with | ⟨0, _⟩ => rfl | ⟨1, _⟩ => rfl
theorem ridx9 (f : Fin 16384) (k : Fin 3072) (w : Fin 10) : ridx_main_v9 (ix2 f k) w = ix2 w k :=
  funext fun a => by match a with | ⟨0, _⟩ => rfl | ⟨1, _⟩ => rfl
theorem idx8 (w : Fin 10) (k : Fin 3072) : idx_main_v8 (ix2 w k) = ix2 k w :=
  funext fun a => by match a with | ⟨0, _⟩ => rfl | ⟨1, _⟩ => rfl
theorem idx1011 (f : Fin 16384) (k : Fin 3072) : idx_main_v10 (idx_main_v11 (ix2 f k)) = ix1 k :=
  funext fun a => by match a with | ⟨0, _⟩ => rfl
theorem lidx15 (f : Fin 16384) (q : Fin 768) (k : Fin 3072) : lidx_main_v15 (ix2 f q) k = ix2 f k :=
  funext fun a => by match a with | ⟨0, _⟩ => rfl | ⟨1, _⟩ => rfl
theorem ridx15 (f : Fin 16384) (q : Fin 768) (k : Fin 3072) : ridx_main_v15 (ix2 f q) k = ix2 k q :=
  funext fun a => by match a with | ⟨0, _⟩ => rfl | ⟨1, _⟩ => rfl
theorem idx14 (k : Fin 3072) (q : Fin 768) : idx_main_v14 (ix2 k q) = ix2 q k :=
  funext fun a => by match a with | ⟨0, _⟩ => rfl | ⟨1, _⟩ => rfl
theorem idx1617 (f : Fin 16384) (q : Fin 768) : idx_main_v16 (idx_main_v17 (ix2 f q)) = ix1 q :=
  funext fun a => by match a with | ⟨0, _⟩ => rfl

/-- One wire's term: the factor `cos θ` moved from the front to the back. -/
theorem wire_term (t c W : EReal) : (t * c) * W = c * (W * t) := by
  rw [mul_comm t c, mul_assoc, mul_comm t W]

/-- The reference's array before its last reshape is the block applied to the flattened input. -/
theorem rows_eq (x0 : (⟨S8x2048x768, .f32⟩ : BufTy).Contents (Elt Ideal)) (x1 : (⟨S10x768, .f32⟩ : BufTy).Contents (Elt Ideal))
    (x2 : (⟨S10, .f32⟩ : BufTy).Contents (Elt Ideal)) (x3 : (⟨S3072x10, .f32⟩ : BufTy).Contents (Elt Ideal))
    (x4 : (⟨S3072, .f32⟩ : BufTy).Contents (Elt Ideal)) (x5 : (⟨S768x3072, .f32⟩ : BufTy).Contents (Elt Ideal))
    (x6 : (⟨S768, .f32⟩ : BufTy).Contents (Elt Ideal)) :
    val_main_v18 (F := Ideal) x0 x1 x2 x3 x4 x5 x6 = spec (val_main_v0 (F := Ideal) x0) x1 x2 x3 x4 x5 x6 := by
  funext i
  obtain ⟨f, q, rfl⟩ : ∃ (f : Fin 16384) (q : Fin 768), i = ix2 f q := ⟨i 0, i 1, eq_ix2 i⟩
  unfold spec
  rw [layer_apply]
  unfold rowOut hiddenUnit angle angleMap firstScaled biasRow1 secondMap biasRow2
  simp only [val_main_v18_apply, val_main_v15_apply, val_main_v17_apply, val_main_v16_apply, val_main_v13_apply,
    val_main_v14_apply, val_main_v12_apply, val_main_call0_v0_apply, val_main_call0_cst_apply, val_main_v9_apply,
    val_main_v11_apply, val_main_v10_apply, val_main_v7_apply, val_main_v8_apply, val_main_v6_apply, val_main_v5_apply,
    val_main_v4_apply, val_main_v3_apply, val_main_v2_apply, val_main_v1_apply,
    lidx2, ridx2, idx1, idx46, lidx9, ridx9, idx8, idx1011, lidx15, ridx15, idx14, idx1617,
    Ideal.addf_def, Ideal.mulf_def, Ideal.maximumf_def, Ideal.hostUnary_cos_def, Ideal.ofBits_def, Ideal.ofBits_zero_f32,
    wire_term]

/-- The reference's result: those rows folded back into the input's three axes. -/
theorem result_eq (x0 : (⟨S8x2048x768, .f32⟩ : BufTy).Contents (Elt Ideal)) (x1 : (⟨S10x768, .f32⟩ : BufTy).Contents (Elt Ideal))
    (x2 : (⟨S10, .f32⟩ : BufTy).Contents (Elt Ideal)) (x3 : (⟨S3072x10, .f32⟩ : BufTy).Contents (Elt Ideal))
    (x4 : (⟨S3072, .f32⟩ : BufTy).Contents (Elt Ideal)) (x5 : (⟨S768x3072, .f32⟩ : BufTy).Contents (Elt Ideal))
    (x6 : (⟨S768, .f32⟩ : BufTy).Contents (Elt Ideal)) :
    val_main_v19 (F := Ideal) x0 x1 x2 x3 x4 x5 x6
      = shapeCast S8x2048x768 (spec (val_main_v0 (F := Ideal) x0) x1 x2 x3 x4 x5 x6) shapeCasts_S16384x768_S8x2048x768 := by
  unfold val_main_v19
  rw [rows_eq]

end Cert.ReferenceIdeal.Entry

end
-- ==== Proof.lean ====
/-
  A per-row feed-forward block, computed two ways, is one function on the extended reals.

  The input, eight batches of 2048 rows of 768 numbers, is flattened to 16384 rows. Each row is mapped to ten angles
  by a 10 × 768 matrix; the cosine of each angle is multiplied by the cosine of a fixed rotation angle of its wire;
  the ten products feed a first layer of 3072 hidden units with a bias and a cut-off at zero, and the hidden units feed
  a second layer of 768 outputs with a bias; the rows are folded back into the input's three axes.

  One program does this with whole-array operations. The other scales the first layer's weights by the ten fixed
  cosines once, and then walks over the rows 512 at a time: for each block it forms the angles by a matrix product,
  takes cosines, accumulates the first layer as ten successive column-times-row products onto a zero array, adds the
  bias, cuts off at zero, and applies the second layer by a matrix product. Entry by entry both are

      (∑ k, max ((∑ w, cos (angle w) * (W1 (k, w) * cos θ w)) + b1 k) 0 * W2 (q, k)) + b2 q,
      angle w = ∑ e, x (f, e) * Wm (w, e):

  the blocks tile the rows, the ten accumulated products are the sum over the wires, and moving the factor `cos θ w`
  inside a product uses only that multiplication on the extended reals is commutative and associative. No input
  needs to be finite for this.

  The modules: `Layer` states the function; `Payload` reads one block's computation entry by entry; `Operands` reads
  the arrays the blocks are given; `KernelRun` puts the blocks together and reads the result; `RefValue` reads the
  whole-array program. Each program's termination, and that its arguments are left unchanged, come with the
  generated frame and run modules.
-/
import proofs.«136490_j65481071405447_2_alg».proof.Defs
import proofs.«136490_j65481071405447_2_alg».proof.Proof.Gen.Kernel
import proofs.«136490_j65481071405447_2_alg».proof.Proof.Gen.Kernel.Frame
import proofs.«136490_j65481071405447_2_alg».proof.Proof.Gen.KernelIdeal
import proofs.«136490_j65481071405447_2_alg».proof.Proof.Gen.KernelIdeal.Frame
import proofs.«136490_j65481071405447_2_alg».proof.Proof.Gen.ReferenceIdeal
import proofs.«136490_j65481071405447_2_alg».proof.Proof.Gen.Pre_finite_inputs
import proofs.«136490_j65481071405447_2_alg».proof.Proof.Gen.ReferenceIdeal.Run
import proofs.«136490_j65481071405447_2_alg».proof.Proof.Gen.ReferenceIdeal.Read
import proofs.«136490_j65481071405447_2_alg».proof.Proof.KernelRun
import proofs.«136490_j65481071405447_2_alg».proof.Proof.RefValue
import Idealize.ShloMosaic.Adequacy
import Idealize.ShloMosaic.Init

noncomputable section

namespace Cert.Proof

open Idealize.ShloMosaic Idealize.ShloMosaic.TcCoe Idealize.SL.Sem

/-- The block-wise program at machine words terminates and leaves its arguments unchanged. -/
theorem frame_words : Cert.frame_Kernel := fun m ρ _ => Cert.Kernel.Gen.frame m ρ

/-- The same program on the extended reals. -/
theorem frame_blocks : Cert.frame_KernelIdeal := fun m ρ _ => Cert.KernelIdeal.Gen.frame m ρ

/-- The whole-array program: its run with the result dropped. -/
theorem frame_whole : Cert.frame_ReferenceIdeal := fun m ρ _ =>
  (θ_run Cert.ReferenceIdeal.defs _ _).mono (fun _ h c => (h c).2) (Cert.ReferenceIdeal.Value.run (F := Ideal) m ρ)

/-- Reading the block-wise program on the extended reals rewrote none of its operations. -/
theorem preserves : Cert.preserves_Kernel_KernelIdeal := trivial

/-- From memories that agree on the seven arguments both programs end with the result array at one function of the
    arguments: the rows flattened, the block applied to each, the rows folded back. -/
theorem algebraic : Cert.algebraic_KernelIdeal_ReferenceIdeal := by
  intro m ρ m' ρ' _ hagree
  refine ⟨fun c => Cert.KernelIdeal.Grid.resultOf
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    Cert.KernelIdeal.Grid.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact Cert.ReferenceIdeal.Entry.result_eq _ _ _ _ _ _ _

theorem claim : Cert.Claim :=
  ⟨Cert.Kernel.Gen.facts, Cert.KernelIdeal.Gen.facts, Cert.ReferenceIdeal.Gen.facts, Cert.Pre_finite_inputs.Gen.facts,
    frame_words, frame_blocks, frame_whole, preserves, algebraic⟩

end Cert.Proof

end
